-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x16x2048x2048 : Shape := ⟨4, ![4, 16, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x16x2048x2048 1) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x16x2048x2048 : Shape := ⟨4, ![4, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .i1⟩
  | .hbm, ⟨4, _⟩ => ⟨S4x16x2048x2048, .i32⟩
  | .hbm, ⟨5, _⟩ => ⟨S4x16x2048x64, .f32⟩
  | .hbm, ⟨6, _⟩ => ⟨S4x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .i32⟩
  | .local _ .vmem, ⟨7, _⟩ => ⟨S1x1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  natLt_1_32 : 1 < 32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x16x2048x64.size a
  hwx0_0 : ∀ i : grid0.Coords, EltTy.bits .f32 = 32 ∨ (Rect.block (s := S4x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x16x2048x64.size a
  hwx0_1 : ∀ i : grid0.Coords, EltTy.bits .f32 = 32 ∨ (Rect.block (s := S4x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .f32 = 32 ∨ (Rect.block (s := S4x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S4x16x2048x2048.size a
  hwx0_3 : ∀ i : grid0.Coords, EltTy.bits .i32 = 32 ∨ (Rect.block (s := S4x16x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S4x16x2048x64.size a
  hwx0_4 : ∀ i : grid0.Coords, EltTy.bits .f32 = 32 ∨ (Rect.block (s := S4x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S4x16x2048x2048.size a
  hwx0_5 : ∀ i : grid0.Coords, EltTy.bits .f32 = 32 ∨ (Rect.block (s := S4x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .i1⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S_, .f32⟩
  | .hbm, ⟨9, _⟩ => ⟨S_, .f32⟩
  | .hbm, ⟨10, _⟩ => ⟨S4x16x2048x2048, .f32⟩
  | .hbm, ⟨11, _⟩ => ⟨S4x16x2048x2048, .f32⟩
  | .hbm, ⟨12, _⟩ => ⟨S_, .f32⟩
  | .hbm, ⟨13, _⟩ => ⟨S4x16x2048, .f32⟩
  | .hbm, ⟨14, _⟩ => ⟨S_, .f32⟩
  | .hbm, ⟨15, _⟩ => ⟨S4x16x2048, .f32⟩
  | .hbm, ⟨16, _⟩ => ⟨S4x16x2048, .f32⟩
  | .hbm, ⟨17, _⟩ => ⟨S4x16x2048x1, .f32⟩
  | .hbm, ⟨18, _⟩ => ⟨S4x16x2048x2048, .f32⟩
  | .hbm, ⟨19, _⟩ => ⟨S4x16x2048x2048, .f32⟩
  | .hbm, ⟨20, _⟩ => ⟨S4x16x2048x2048, .f32⟩
  | .hbm, ⟨21, _⟩ => ⟨S_, .f32⟩
  | .hbm, ⟨22, _⟩ => ⟨S4x16x2048, .f32⟩
  | .hbm, ⟨23, _⟩ => ⟨S4x16x2048x1, .f32⟩
  | .hbm, ⟨24, _⟩ => ⟨S4x16x2048x2048, .f32⟩
  | .hbm, ⟨25, _⟩ => ⟨S4x16x2048x2048, .f32⟩
  | .hbm, ⟨26, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.AttnSpec.lean ====
/-
  Scaled dot-product attention with a boolean mask, one query row at a time, over the extended reals.

  For a query row `q` (D numbers), a key matrix (S rows of D numbers) and a mask row (S bits), the score of key `k` is the
  sentinel `neg` where the mask is set, and otherwise the inner product `⟨q, K k⟩` times the scale `c`. The attention
  probabilities are the softmax of the scores: `exp (s k − max s) / ∑ j, exp (s j − max s)`. The context is the
  probabilities' weighted sum of the value rows.

  Two spellings of the score differ only in where the scale sits: on the inner product (`score`), or on every entry of the
  query row before the product (`scoreFolded`). They agree when the scale and all entries are real numbers
  (`scoreFolded_eq`): that is distributivity of multiplication over a finite sum, which on the extended reals needs the
  terms finite (`(⊤ + ⊥) · c` is not `⊤ · c + ⊥ · c`).
-/
import Idealize.ShloMosaic.PureOps.Ideal
import Idealize.ShloMosaic.Lib.ValueIdx

noncomputable section

open scoped BigOperators

namespace Cert.Attn

open Idealize.ShloMosaic Idealize.ShloMosaic.ValueIdx

variable {D S : ℕ}

/-- The masked, scaled score of one query row against key `k`: the scale on the inner product. -/
def score (c neg : EReal) (qrow : Fin D → EReal) (Kmat : Fin S → Fin D → EReal) (msk : Fin S → BitVec 1) (k : Fin S) : EReal :=
  Scalar.select (msk k) neg ((∑ d : Fin D, qrow d * Kmat k d) * c)

/-- The same score with the scale folded into the query row before the inner product. -/
def scoreFolded (c neg : EReal) (qrow : Fin D → EReal) (Kmat : Fin S → Fin D → EReal) (msk : Fin S → BitVec 1) (k : Fin S) : EReal :=
  Scalar.select (msk k) neg (∑ d : Fin D, (qrow d * c) * Kmat k d)

/-- The softmax of a row of scores, shifted by the row's maximum. -/
def softmax (s : Fin S → EReal) (k : Fin S) : EReal :=
  Ideal.div (Ideal.exp (s k - (Finset.univ : Finset (Fin S)).sup s))
    (∑ j : Fin S, Ideal.exp (s j - (Finset.univ : Finset (Fin S)).sup s))

/-- The context row: the value rows weighted by the probabilities. -/
def context (p : Fin S → EReal) (Vmat : Fin S → Fin D → EReal) (d : Fin D) : EReal :=
  ∑ k : Fin S, p k * Vmat k d

/-- A finite sum of real numbers, taken in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- With a real scale and real entries the scale may sit on the query row or on the inner product. -/
theorem scoreFolded_eq (c neg : EReal) (qrow : Fin D → EReal) (Kmat : Fin S → Fin D → EReal) (msk : Fin S → BitVec 1)
    (hc : ∃ r : ℝ, c = (r : EReal)) (hq : ∀ d, ∃ r : ℝ, qrow d = (r : EReal)) (hK : ∀ k d, ∃ r : ℝ, Kmat k d = (r : EReal)) :
    scoreFolded c neg qrow Kmat msk = score c neg qrow Kmat msk := by
  funext k
  obtain ⟨cr, rfl⟩ := hc
  choose qr hqr using hq
  choose Kr hKr using hK
  unfold scoreFolded score
  congr 1
  have h1 : ∀ d, (qrow d * (cr : EReal)) * Kmat k d = ((qr d * cr * Kr k d : ℝ) : EReal) := fun d => by
    rw [hqr, hKr, EReal.coe_mul, EReal.coe_mul]
  have h2 : ∀ d, qrow d * Kmat k d = ((qr d * Kr k d : ℝ) : EReal) := fun d => by
    rw [hqr, hKr, EReal.coe_mul]
  simp only [h1, h2]
  rw [coe_sum, coe_sum, ← EReal.coe_mul, Finset.sum_mul]
  congr 1
  exact Finset.sum_congr rfl fun d _ => by ring

/-! ## The two result arrays of the attention over [4, 16, 2048, ·] arrays -/

/-- The scale `1/8` and the mask sentinel `-1e9`, as the single-precision words the programs spell. -/
def scale : EReal := Ideal.ofBits .f32 0x3E000000#32
def sentinel : EReal := Ideal.ofBits .f32 0xCE6E6B28#32

/-- The scale's word denotes the real number 1/8. -/
theorem scale_real : ∃ r : ℝ, scale = (r : EReal) := ⟨1 / 8, by
  unfold scale
  simp [Ideal.ofBits, Ideal.ieee, -EReal.coe_mul]; norm_num⟩

abbrev QKV : Shape := ⟨4, ![4, 16, 2048, 64]⟩
abbrev PM : Shape := ⟨4, ![4, 16, 2048, 2048]⟩

/-- The probabilities of query row `(b, h, q)`: the softmax of that row's masked, scaled scores against the keys of head `(b, h)`. -/
def probRow (Q K : QKV.Idx → EReal) (M : PM.Idx → BitVec 1) (b : Fin 4) (h : Fin 16) (q : Fin 2048) : Fin 2048 → EReal :=
  softmax (score scale sentinel (fun d : Fin 64 => Q (ix4 b h q d)) (fun (k : Fin 2048) (d : Fin 64) => K (ix4 b h k d))
    (fun k : Fin 2048 => M (ix4 b h q k)))

/-- The array of attention probabilities. -/
def probs (Q K : QKV.Idx → EReal) (M : PM.Idx → BitVec 1) : PM.Idx → EReal :=
  fun i => probRow Q K M (i 0) (i 1) (i 2) (i 3)

/-- The context array. -/
def ctx (Q K V : QKV.Idx → EReal) (M : PM.Idx → BitVec 1) : QKV.Idx → EReal :=
  fun i => context (probRow Q K M (i 0) (i 1) (i 2)) (fun (k : Fin 2048) (d : Fin 64) => V (ix4 (i 0) (i 1) k d)) (i 3)

/-! ## The same arrays in the spelling of a program that folds the scale into the query rows and carries the mask as words -/

/-- A mask bit widened to a 32-bit word and tested against zero is the bit. -/
theorem cmpi_ne_zero_setWidth (b : BitVec 1) : IntOp.cmpi .ne (b.setWidth 32) 0#32 = b := by
  by_cases h : b = 1#1
  · subst h; decide
  · rw [eq_zero_of_ne_one h]; decide

/-- The probabilities of query row `(b, h, q)` with the scale folded into the query row and the mask read from 32-bit words,
    set where nonzero. -/
def probRowFolded (Q K : QKV.Idx → EReal) (Mw : PM.Idx → BitVec 32) (b : Fin 4) (h : Fin 16) (q : Fin 2048) : Fin 2048 → EReal :=
  softmax (scoreFolded scale sentinel (fun d : Fin 64 => Q (ix4 b h q d)) (fun (k : Fin 2048) (d : Fin 64) => K (ix4 b h k d))
    (fun k : Fin 2048 => IntOp.cmpi .ne (Mw (ix4 b h q k)) 0#32))

def probsFolded (Q K : QKV.Idx → EReal) (Mw : PM.Idx → BitVec 32) : PM.Idx → EReal :=
  fun i => probRowFolded Q K Mw (i 0) (i 1) (i 2) (i 3)

def ctxFolded (Q K V : QKV.Idx → EReal) (Mw : PM.Idx → BitVec 32) : QKV.Idx → EReal :=
  fun i => context (probRowFolded Q K Mw (i 0) (i 1) (i 2)) (fun (k : Fin 2048) (d : Fin 64) => V (ix4 (i 0) (i 1) k d)) (i 3)

/-- With real queries and keys, and the mask words the widened mask bits, the folded spelling is the specification's. -/
theorem probRowFolded_eq (Q K : QKV.Idx → EReal) (M : PM.Idx → BitVec 1) (hQ : ∀ i, ∃ r : ℝ, Q i = (r : EReal))
    (hK : ∀ i, ∃ r : ℝ, K i = (r : EReal)) (b : Fin 4) (h : Fin 16) (q : Fin 2048) :
    probRowFolded Q K (fun i => (M i).setWidth 32) b h q = probRow Q K M b h q := by
  unfold probRowFolded probRow
  rw [scoreFolded_eq scale sentinel _ _ _ scale_real (fun d => hQ _) (fun k d => hK _)]
  congr 2
  funext k
  exact cmpi_ne_zero_setWidth _

theorem probsFolded_eq (Q K : QKV.Idx → EReal) (M : PM.Idx → BitVec 1) (hQ : ∀ i, ∃ r : ℝ, Q i = (r : EReal))
    (hK : ∀ i, ∃ r : ℝ, K i = (r : EReal)) : probsFolded Q K (fun i => (M i).setWidth 32) = probs Q K M := by
  funext i
  exact congrFun (probRowFolded_eq Q K M hQ hK (i 0) (i 1) (i 2)) (i 3)

theorem ctxFolded_eq (Q K V : QKV.Idx → EReal) (M : PM.Idx → BitVec 1) (hQ : ∀ i, ∃ r : ℝ, Q i = (r : EReal))
    (hK : ∀ i, ∃ r : ℝ, K i = (r : EReal)) : ctxFolded Q K V (fun i => (M i).setWidth 32) = ctx Q K V M := by
  funext i
  exact congrArg (fun p : Fin 2048 → EReal => context p (fun (k : Fin 2048) (d : Fin 64) => V (ix4 (i 0) (i 1) k d)) (i 3))
    (probRowFolded_eq Q K M hQ hK (i 0) (i 1) (i 2))

end Cert.Attn

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«152172_j78288663872424_2_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«152172_j78288663872424_2_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.KernelBlock.lean ====
/-
  One grid point of the attention kernel as mathematics. The body receives a tile of 512 query rows, all 2048 key rows and all
  2048 value rows of one head, and the mask's 512 × 2048 tile (as 32-bit words, set where nonzero). It forms the scores of each
  query row against every key — the query row scaled first, then the inner product, then the sentinel where the mask is set —,
  takes the softmax of each row of scores (shifted by the row's maximum, normalised by the row's sum) and multiplies the
  probabilities with the values. Read at one entry:

  * probability (q, k) is the softmax, at key k, of query row q's folded scores (`probs_apply`);
  * context (q, d) is the sum over keys k of probability (q, k) times value (k, d) (`ctx_apply`).

  Changes of float format are the identity on the extended reals, the row maximum from −∞ is the supremum of the row, the row sum
  from 0 is the plain sum, and the two matrix products are plain sums of products.
-/
import proofs.«152172_j78288663872424_2_alg».proof.Proof.Gen.KernelIdeal.Skeleton
import proofs.«152172_j78288663872424_2_alg».proof.Proof.AttnSpec
import proofs.«152172_j78288663872424_2_alg».proof.Proof.LibHostMax
import proofs.«152172_j78288663872424_2_alg».proof.Proof.LibLaneRows
import proofs.«152172_j78288663872424_2_alg».proof.Proof.LibDotRows
import proofs.«152172_j78288663872424_2_alg».proof.Proof.LibDotCols
import Idealize.ShloMosaic.Lib.Pipeline.Value
import Idealize.ShloMosaic.Lib.ValueIdx

noncomputable section

open scoped BigOperators

namespace Cert.KernelIdeal.Block

open Cert.KernelIdeal Cert.KernelIdeal.Gen Idealize.ShloMosaic Idealize.ShloMosaic.ValueIdx

/-- A [1, 1, a, b] array cast to [a, b], read at (p, q), is the array at (0, 0, p, q). -/
theorem shapeCast_11ab_apply {α : Type} {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp)

/-- An [a, b] array cast to [1, 1, a, b], read at (0, 0, p, q), is the array at (p, q). -/
theorem shapeCast_ab11_apply {α : Type} {a b : ℕ} (x : (⟨2, ![a, b]⟩ : Shape).Idx → α)
    (h : (⟨2, ![a, b]⟩ : Shape).ShapeCasts ⟨4, ![1, 1, a, b]⟩) (p : Fin a) (q : Fin b) :
    shapeCast ⟨4, ![1, 1, a, b]⟩ x h (ix4 (0 : Fin 1) (0 : Fin 1) p q) = x (ix2 p q) :=
  shapeCast_apply x h _ _ (by
    rw [Shape.rowMajor_val_four, Shape.rowMajor_val_two]
    show p.val * b + q.val = ((0 * 1 + 0) * a + p.val) * b + q.val
    simp)

/-- The scores of the query tile against all keys: the scaled query rows times the key rows, the sentinel where the mask word is
    nonzero. -/
def tileScores (x0 : Vec Ideal S1x1x512x64 .f32) (x1 : Vec Ideal S1x1x2048x64 .f32) (x3 : Vec Ideal S1x1x512x2048 .i32) :
    FVec Ideal S512x2048 .f32 :=
  select (cmpi .ne (shapeCast S512x2048 x3 shapeCasts_S1x1x512x2048_S512x2048) (constantI S512x2048 32 0#32))
    (broadcast S512x2048 (Scalar.ofBits .f32 0xCE6E6B28#32))
    (matmul dot_S512x64_S2048x64_S512x2048_1_1_0_0_n_n none
      (truncf .bf16 (mulf (shapeCast S512x64 x0 shapeCasts_S1x1x512x64_S512x64) (broadcast S512x64 (Scalar.ofBits .f32 0x3E000000#32))) bitsLt_bf16_f32)
      (truncf .bf16 (shapeCast S2048x64 x1 shapeCasts_S1x1x2048x64_S2048x64) bitsLt_bf16_f32)
      (constant S512x2048 .f32 0x00000000#32))

/-- The row maxima of a tile, from −∞, as a column repeated across the row. -/
def rowMaxCol (s : FVec Ideal S512x2048 .f32) : FVec Ideal S512x2048 .f32 :=
  broadcastTo S512x2048 (shapeCast S512x1 (multiReduction (F := Ideal) .maximumf [1] S512 s 0xFF800000#32 reduces_S512x2048_S512 (.inl rfl) rfl) shapeCasts_S512_S512x1) broadcasts_S512x1_S512x2048

/-- The row sums of a tile, from 0, as a column repeated across the row. -/
def rowSumCol (e : FVec Ideal S512x2048 .f32) : FVec Ideal S512x2048 .f32 :=
  broadcastTo S512x2048 (shapeCast S512x1 (multiReduction (F := Ideal) .add [1] S512 e 0x00000000#32 reduces_S512x2048_S512 (.inl rfl) rfl) shapeCasts_S512_S512x1) broadcasts_S512x1_S512x2048

/-- The row softmax of a 512 × 2048 tile of scores. -/
def tileSoftmax (s : FVec Ideal S512x2048 .f32) : FVec Ideal S512x2048 .f32 :=
  divf (exp (subf s (rowMaxCol s))) (rowSumCol (exp (subf s (rowMaxCol s))))

/-- The body's probabilities are the row softmax of its scores. -/
theorem pay2_eq (x0 : Vec Ideal S1x1x512x64 .f32) (x1 : Vec Ideal S1x1x2048x64 .f32) (x3 : Vec Ideal S1x1x512x2048 .i32) :
    k0_pay2 (F := Ideal) x0 x1 x3 = tileSoftmax (tileScores x0 x1 x3) := rfl

/-- The product of the scaled query rows with the key rows at (q, k). -/
theorem qk_apply (x0 : Vec Ideal S1x1x512x64 .f32) (x1 : Vec Ideal S1x1x2048x64 .f32) (q : Fin 512) (k : Fin 2048) :
    matmul (F := Ideal) dot_S512x64_S2048x64_S512x2048_1_1_0_0_n_n none
      (truncf .bf16 (mulf (shapeCast S512x64 x0 shapeCasts_S1x1x512x64_S512x64) (broadcast S512x64 (Scalar.ofBits .f32 0x3E000000#32))) bitsLt_bf16_f32)
      (truncf .bf16 (shapeCast S2048x64 x1 shapeCasts_S1x1x2048x64_S2048x64) bitsLt_bf16_f32)
      (constant (F := Ideal) S512x2048 .f32 0x00000000#32) (ix2 q k)
      = ∑ d : Fin 64, (x0 (ix4 (0 : Fin 1) (0 : Fin 1) q d) * Attn.scale) * x1 (ix4 (0 : Fin 1) (0 : Fin 1) k d) := by
  refine (Cert.Lib.DotRows.matmul_rows_apply (M := 512) (K := 64) (N := 2048) dot_S512x64_S2048x64_S512x2048_1_1_0_0_n_n rfl none _ _ q k).trans ?_
  refine Finset.sum_congr rfl fun d _ => ?_
  show (shapeCast S512x64 x0 shapeCasts_S1x1x512x64_S512x64 (ix2 q d) * Attn.scale) * shapeCast S2048x64 x1 shapeCasts_S1x1x2048x64_S2048x64 (ix2 k d) = _
  rw [shapeCast_11ab_apply, shapeCast_11ab_apply]

/-- Score (q, k) of the tile: the folded score of query row q against key k. -/
theorem tileScores_apply (x0 : Vec Ideal S1x1x512x64 .f32) (x1 : Vec Ideal S1x1x2048x64 .f32) (x3 : Vec Ideal S1x1x512x2048 .i32)
    (q : Fin 512) (k : Fin 2048) :
    tileScores x0 x1 x3 (ix2 q k)
      = Attn.scoreFolded Attn.scale Attn.sentinel (fun d : Fin 64 => x0 (ix4 (0 : Fin 1) (0 : Fin 1) q d))
          (fun (j : Fin 2048) (d : Fin 64) => x1 (ix4 (0 : Fin 1) (0 : Fin 1) j d))
          (fun j : Fin 2048 => IntOp.cmpi .ne (x3 (ix4 (0 : Fin 1) (0 : Fin 1) q j)) 0#32) k := by
  have hm : shapeCast S512x2048 x3 shapeCasts_S1x1x512x2048_S512x2048 (ix2 q k) = x3 (ix4 (0 : Fin 1) (0 : Fin 1) q k) :=
    shapeCast_11ab_apply x3 _ q k
  show Scalar.select (IntOp.cmpi .ne (shapeCast S512x2048 x3 shapeCasts_S1x1x512x2048_S512x2048 (ix2 q k)) 0#32) Attn.sentinel _
      = Scalar.select (IntOp.cmpi .ne (x3 (ix4 (0 : Fin 1) (0 : Fin 1) q k)) 0#32) Attn.sentinel _
  rw [hm]
  exact congrArg (Scalar.select _ Attn.sentinel) (qk_apply x0 x1 q k)

/-- The repeated row maximum at (q, j) is the supremum of row q. -/
theorem rowMaxCol_apply (s : FVec Ideal S512x2048 .f32) (q : Fin 512) (j : Fin 2048) :
    rowMaxCol s (ix2 q j) = (Finset.univ : Finset (Fin 2048)).sup fun j => s (ix2 q j) :=
  (LaneRows.broadcastTo_col_apply _ broadcasts_S512x1_S512x2048 q j).trans
    ((HostMax.shapeCast_col_apply _ shapeCasts_S512_S512x1 (ix2 q (0 : Fin 1)) q rfl).trans
      (HostMax.multiReduction_rows s reduces_S512x2048_S512 (.inl rfl) rfl q))

/-- The repeated row sum at (q, j) is the sum of row q. -/
theorem rowSumCol_apply (e : FVec Ideal S512x2048 .f32) (q : Fin 512) (j : Fin 2048) :
    rowSumCol e (ix2 q j) = ∑ j : Fin 2048, e (ix2 q j) :=
  (LaneRows.broadcastTo_col_apply _ broadcasts_S512x1_S512x2048 q j).trans
    ((HostMax.shapeCast_col_apply _ shapeCasts_S512_S512x1 (ix2 q (0 : Fin 1)) q rfl).trans
      (LaneRows.multiReduction_add_rows e 0x00000000#32 reduces_S512x2048_S512 (.inl rfl) rfl q))

/-- Entry (q, k) of the row softmax of a tile is the softmax of row q at k. -/
theorem tileSoftmax_apply (s : FVec Ideal S512x2048 .f32) (q : Fin 512) (k : Fin 2048) :
    tileSoftmax s (ix2 q k) = Attn.softmax (fun j : Fin 2048 => s (ix2 q j)) k := by
  have hexp : ∀ j : Fin 2048, exp (subf s (rowMaxCol s)) (ix2 q j)
      = Ideal.exp (s (ix2 q j) - (Finset.univ : Finset (Fin 2048)).sup fun j => s (ix2 q j)) := fun j =>
    congrArg (fun mx => Ideal.exp (s (ix2 q j) - mx)) (rowMaxCol_apply s q j)
  have hsum : rowSumCol (exp (subf s (rowMaxCol s))) (ix2 q k)
      = ∑ j : Fin 2048, Ideal.exp (s (ix2 q j) - (Finset.univ : Finset (Fin 2048)).sup fun j => s (ix2 q j)) :=
    (rowSumCol_apply _ q k).trans (Finset.sum_congr rfl fun j _ => hexp j)
  show Ideal.div (exp (subf s (rowMaxCol s)) (ix2 q k)) (rowSumCol (exp (subf s (rowMaxCol s))) (ix2 q k)) = _
  rw [hexp k, hsum]
  rfl

/-- PROBABILITY (q, k) of the point's block. -/
theorem probs_apply (x0 : Vec Ideal S1x1x512x64 .f32) (x1 : Vec Ideal S1x1x2048x64 .f32) (x3 : Vec Ideal S1x1x512x2048 .i32)
    (q : Fin 512) (k : Fin 2048) :
    k0_pay2 (F := Ideal) x0 x1 x3 (ix2 q k)
      = Attn.softmax (Attn.scoreFolded Attn.scale Attn.sentinel (fun d : Fin 64 => x0 (ix4 (0 : Fin 1) (0 : Fin 1) q d))
          (fun (j : Fin 2048) (d : Fin 64) => x1 (ix4 (0 : Fin 1) (0 : Fin 1) j d))
          (fun j : Fin 2048 => IntOp.cmpi .ne (x3 (ix4 (0 : Fin 1) (0 : Fin 1) q j)) 0#32)) k := by
  rw [pay2_eq, tileSoftmax_apply]
  congr 1
  funext j
  exact tileScores_apply x0 x1 x3 q j

/-- CONTEXT (q, d) of the point's block: the probabilities of row q against the value rows. -/
theorem ctx_apply (x0 : Vec Ideal S1x1x512x64 .f32) (x1 : Vec Ideal S1x1x2048x64 .f32) (x2 : Vec Ideal S1x1x2048x64 .f32)
    (x3 : Vec Ideal S1x1x512x2048 .i32) (q : Fin 512) (d : Fin 64) :
    k0_pay1 (F := Ideal) (k0_pay4 x0 x1 x3) (k0_pay5 x2) (ix4 (0 : Fin 1) (0 : Fin 1) q d)
      = Attn.context (fun k : Fin 2048 => k0_pay2 (F := Ideal) x0 x1 x3 (ix2 q k))
          (fun (k : Fin 2048) (d : Fin 64) => x2 (ix4 (0 : Fin 1) (0 : Fin 1) k d)) d := by
  unfold k0_pay1 Attn.context
  rw [shapeCast_ab11_apply]
  refine (Cert.Lib.DotCols.matmul_cols_apply (M := 512) (K := 2048) (N := 64) dot_S512x2048_S2048x64_S512x64_1_0_0_1_n_n rfl none _ _ q d).trans ?_
  refine Finset.sum_congr rfl fun k _ => ?_
  show k0_pay2 (F := Ideal) x0 x1 x3 (ix2 q k) * shapeCast S2048x64 x2 shapeCasts_S1x1x2048x64_S2048x64 (ix2 k d) = _
  rw [shapeCast_11ab_apply]

/-! ## The point's blocks as pieces of the whole arrays

The point with batch `nb`, head `nh` and query tile `nq` reads rows `512·nq … 512·nq + 511` of head `(nb, nh)` of the queries and of the mask,
and all rows of that head's keys and values (`h0 … h3`: each block's entry is the array's entry at the displaced index). What it
writes is then the matching piece of the whole probability array and of the whole context array. -/

section Blocks

variable (Q K V : Attn.QKV.Idx → EReal) (Mw : Attn.PM.Idx → BitVec 32)
  (x0 : Vec Ideal S1x1x512x64 .f32) (x1 x2 : Vec Ideal S1x1x2048x64 .f32) (x3 : Vec Ideal S1x1x512x2048 .i32) (nb nh nq : ℕ)
  (h0 : ∀ (y : S1x1x512x64.Idx) (i : Attn.QKV.Idx), (i 0).val = nb → (i 1).val = nh → (i 2).val = nq * 512 + (y 2).val → (i 3).val = (y 3).val → x0 y = Q i)
  (h1 : ∀ (y : S1x1x2048x64.Idx) (i : Attn.QKV.Idx), (i 0).val = nb → (i 1).val = nh → (i 2).val = (y 2).val → (i 3).val = (y 3).val → x1 y = K i)
  (h2 : ∀ (y : S1x1x2048x64.Idx) (i : Attn.QKV.Idx), (i 0).val = nb → (i 1).val = nh → (i 2).val = (y 2).val → (i 3).val = (y 3).val → x2 y = V i)
  (h3 : ∀ (y : S1x1x512x2048.Idx) (i : Attn.PM.Idx), (i 0).val = nb → (i 1).val = nh → (i 2).val = nq * 512 + (y 2).val → (i 3).val = (y 3).val → x3 y = Mw i)

include h0 h1 h3 in
/-- Row `q` of the point's probabilities is the probability row of query `512·nq + q` of head `(nb, nh)`. -/
theorem probRow_block (q : Fin 512) (b : Fin 4) (h : Fin 16) (q' : Fin 2048) (hb : b.val = nb) (hh : h.val = nh) (hq : q'.val = nq * 512 + q.val) :
    (fun k : Fin 2048 => k0_pay2 (F := Ideal) x0 x1 x3 (ix2 q k)) = Attn.probRowFolded Q K Mw b h q' := by
  have e0 : (fun d : Fin 64 => x0 (ix4 (0 : Fin 1) (0 : Fin 1) q d)) = fun d : Fin 64 => Q (ix4 b h q' d) :=
    funext fun d => h0 (ix4 (0 : Fin 1) (0 : Fin 1) q d) (ix4 b h q' d) hb hh hq rfl
  have e1 : (fun (j : Fin 2048) (d : Fin 64) => x1 (ix4 (0 : Fin 1) (0 : Fin 1) j d)) = fun (j : Fin 2048) (d : Fin 64) => K (ix4 b h j d) :=
    funext fun j => funext fun d => h1 (ix4 (0 : Fin 1) (0 : Fin 1) j d) (ix4 b h j d) hb hh rfl rfl
  have e3 : (fun j : Fin 2048 => IntOp.cmpi .ne (x3 (ix4 (0 : Fin 1) (0 : Fin 1) q j)) 0#32) = fun j : Fin 2048 => IntOp.cmpi .ne (Mw (ix4 b h q' j)) 0#32 :=
    funext fun j => congrArg (fun w => IntOp.cmpi .ne w 0#32) (h3 (ix4 (0 : Fin 1) (0 : Fin 1) q j) (ix4 b h q' j) hb hh hq rfl)
  funext k
  rw [probs_apply, e0, e1, e3]
  rfl

include h0 h1 h3 in
/-- The probabilities the point stores are its piece of the whole probability array. -/
theorem probs_block (y : S1x1x512x2048.Idx) (i : Attn.PM.Idx) (hi0 : (i 0).val = nb) (hi1 : (i 1).val = nh)
    (hi2 : (i 2).val = nq * 512 + (y 2).val) (hi3 : (i 3).val = (y 3).val) :
    k0_pay3 (F := Ideal) x0 x1 x3 y = Attn.probsFolded Q K Mw i := by
  obtain ⟨u, v, q, k, rfl⟩ : ∃ (u v : Fin 1) (q : Fin 512) (k : Fin 2048), y = ix4 u v q k := ⟨y 0, y 1, y 2, y 3, eq_ix4 y⟩
  obtain rfl : u = 0 := Subsingleton.elim _ _
  obtain rfl : v = 0 := Subsingleton.elim _ _
  obtain ⟨b, h, q', k', rfl⟩ : ∃ (b : Fin 4) (h : Fin 16) (q' k' : Fin 2048), i = ix4 b h q' k' := ⟨i 0, i 1, i 2, i 3, eq_ix4 i⟩
  obtain rfl : k' = k := Fin.ext hi3
  show shapeCast S1x1x512x2048 (k0_pay2 (F := Ideal) x0 x1 x3) shapeCasts_S512x2048_S1x1x512x2048 (ix4 (0 : Fin 1) (0 : Fin 1) q k') = Attn.probRowFolded Q K Mw b h q' k'
  rw [shapeCast_ab11_apply]
  exact congrFun (probRow_block Q K Mw x0 x1 x3 nb nh nq h0 h1 h3 q b h q' hi0 hi1 hi2) k'

include h0 h1 h2 h3 in
/-- The context the point stores is its piece of the whole context array. -/
theorem ctx_block (y : S1x1x512x64.Idx) (i : Attn.QKV.Idx) (hi0 : (i 0).val = nb) (hi1 : (i 1).val = nh)
    (hi2 : (i 2).val = nq * 512 + (y 2).val) (hi3 : (i 3).val = (y 3).val) :
    k0_pay1 (F := Ideal) (k0_pay4 x0 x1 x3) (k0_pay5 x2) y = Attn.ctxFolded Q K V Mw i := by
  obtain ⟨u, v, q, d, rfl⟩ : ∃ (u v : Fin 1) (q : Fin 512) (d : Fin 64), y = ix4 u v q d := ⟨y 0, y 1, y 2, y 3, eq_ix4 y⟩
  obtain rfl : u = 0 := Subsingleton.elim _ _
  obtain rfl : v = 0 := Subsingleton.elim _ _
  obtain ⟨b, h, q', d', rfl⟩ : ∃ (b : Fin 4) (h : Fin 16) (q' : Fin 2048) (d' : Fin 64), i = ix4 b h q' d' := ⟨i 0, i 1, i 2, i 3, eq_ix4 i⟩
  obtain rfl : d' = d := Fin.ext hi3
  have e2 : (fun (k : Fin 2048) (d : Fin 64) => x2 (ix4 (0 : Fin 1) (0 : Fin 1) k d)) = fun (k : Fin 2048) (d : Fin 64) => V (ix4 b h k d) :=
    funext fun k => funext fun d => h2 (ix4 (0 : Fin 1) (0 : Fin 1) k d) (ix4 b h k d) hi0 hi1 rfl rfl
  rw [ctx_apply, probRow_block Q K Mw x0 x1 x3 nb nh nq h0 h1 h3 q b h q' hi0 hi1 hi2, e2]
  rfl

end Blocks

end Cert.KernelIdeal.Block

end
-- ==== Proof.KernelArray.lean ====
/-
  From the grid's blocks to the whole arrays. The 256 grid points are the pairs (head (b, h), query tile n): point t has
  b = t / 64, h = t / 4 mod 16, n = t mod 4. At point t the query window, the mask window and both output windows sit on rows
  512·n … 512·n + 511 of head (b, h); the key and value windows sit on the whole head. Each point writes back, for both outputs, its
  own piece of one whole-array function (the attention probabilities and the context, in the kernel's spelling), every index of
  either output lies in exactly the piece of the point with its head and its row's tile, and so after the run each output array IS
  that function of the argument arrays. The mask reaches the kernel as 32-bit words: the host widens each bit before the launch.
-/
import proofs.«152172_j78288663872424_2_alg».proof.Proof.Gen.KernelIdeal.Value
import proofs.«152172_j78288663872424_2_alg».proof.Proof.KernelBlock
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

theorem hz : (![0, 0, 0, 0] : Fin 4 → Nat) = fun _ => 0 := funext fun a => by fin_cases a <;> rfl

/-- The printed index maps over the grid: which block of its array each window sits on at point `t`. -/
theorem idx_facts : ∀ t : Fin cfg0.N,
    (win0_0.index t (0 : Fin 4) = t.val / 64 ∧ win0_0.index t (1 : Fin 4) = t.val / 4 % 16 ∧ win0_0.index t (2 : Fin 4) = t.val % 4 ∧ win0_0.index t (3 : Fin 4) = 0)
    ∧ (win0_1.index t (0 : Fin 4) = t.val / 64 ∧ win0_1.index t (1 : Fin 4) = t.val / 4 % 16 ∧ win0_1.index t (2 : Fin 4) = 0 ∧ win0_1.index t (3 : Fin 4) = 0)
    ∧ (win0_2.index t (0 : Fin 4) = t.val / 64 ∧ win0_2.index t (1 : Fin 4) = t.val / 4 % 16 ∧ win0_2.index t (2 : Fin 4) = 0 ∧ win0_2.index t (3 : Fin 4) = 0)
    ∧ (win0_3.index t (0 : Fin 4) = t.val / 64 ∧ win0_3.index t (1 : Fin 4) = t.val / 4 % 16 ∧ win0_3.index t (2 : Fin 4) = t.val % 4 ∧ win0_3.index t (3 : Fin 4) = 0)
    ∧ (win0_4.index t (0 : Fin 4) = t.val / 64 ∧ win0_4.index t (1 : Fin 4) = t.val / 4 % 16 ∧ win0_4.index t (2 : Fin 4) = t.val % 4 ∧ win0_4.index t (3 : Fin 4) = 0)
    ∧ (win0_5.index t (0 : Fin 4) = t.val / 64 ∧ win0_5.index t (1 : Fin 4) = t.val / 4 % 16 ∧ win0_5.index t (2 : Fin 4) = t.val % 4 ∧ win0_5.index t (3 : Fin 4) = 0) :=
  (by decide +kernel : ∀ t : Fin grid0.N, _)

/-- The mask as the region finds it: each bit widened to a 32-bit word by the host. -/
theorem V_main_v0 (c : Dev nD) :
    (V m c main_v0 : S4x16x2048x2048.Idx → BitVec 32) = fun i => ((m ((c : Thread nD τ).loc main_arg3) : S4x16x2048x2048.Idx → BitVec 1) i).setWidth 32 := by
  dsimp only [Gen.V, Gen.hostOps0]; after_results; rfl

/-! ## The input blocks as pieces of the arrays -/

theorem blk0 (c : Dev nD) (t : Fin cfg0.N) (y : S1x1x512x64.Idx) (i : S4x16x2048x64.Idx)
    (e0 : (i 0).val = t.val / 64) (e1 : (i 1).val = t.val / 4 % 16) (e2 : (i 2).val = t.val % 4 * 512 + (y 2).val) (e3 : (i 3).val = (y 3).val) :
    (iblk m c 0 t : S1x1x512x64.Idx → EReal) y = (V m c main_arg0 : S4x16x2048x64.Idx → EReal) i := by
  obtain ⟨⟨f0, f1, f2, f3⟩, -⟩ := idx_facts t
  have hy0 : (y 0).val < 1 := (y 0).isLt
  have hy1 : (y 1).val < 1 := (y 1).isLt
  show V m c main_arg0 (((cfg0.win 0).blk t).view.emb y) = V m c main_arg0 i
  congr 1
  funext a; apply Fin.ext
  match a with
  | ⟨0, _⟩ => show win0_0.index t (0 : Fin 4) * 1 + 1 * (y 0).val = (i 0).val; omega
  | ⟨1, _⟩ => show win0_0.index t (1 : Fin 4) * 1 + 1 * (y 1).val = (i 1).val; omega
  | ⟨2, _⟩ => show win0_0.index t (2 : Fin 4) * 512 + 1 * (y 2).val = (i 2).val; omega
  | ⟨3, _⟩ => show win0_0.index t (3 : Fin 4) * 64 + 1 * (y 3).val = (i 3).val; omega

theorem blk1 (c : Dev nD) (t : Fin cfg0.N) (y : S1x1x2048x64.Idx) (i : S4x16x2048x64.Idx)
    (e0 : (i 0).val = t.val / 64) (e1 : (i 1).val = t.val / 4 % 16) (e2 : (i 2).val = (y 2).val) (e3 : (i 3).val = (y 3).val) :
    (iblk m c 1 t : S1x1x2048x64.Idx → EReal) y = (V m c main_arg1 : S4x16x2048x64.Idx → EReal) i := by
  obtain ⟨-, ⟨f0, f1, f2, f3⟩, -⟩ := idx_facts t
  have hy0 : (y 0).val < 1 := (y 0).isLt
  have hy1 : (y 1).val < 1 := (y 1).isLt
  show V m c main_arg1 (((cfg0.win 1).blk t).view.emb y) = V m c main_arg1 i
  congr 1
  funext a; apply Fin.ext
  match a with
  | ⟨0, _⟩ => show win0_1.index t (0 : Fin 4) * 1 + 1 * (y 0).val = (i 0).val; omega
  | ⟨1, _⟩ => show win0_1.index t (1 : Fin 4) * 1 + 1 * (y 1).val = (i 1).val; omega
  | ⟨2, _⟩ => show win0_1.index t (2 : Fin 4) * 2048 + 1 * (y 2).val = (i 2).val; omega
  | ⟨3, _⟩ => show win0_1.index t (3 : Fin 4) * 64 + 1 * (y 3).val = (i 3).val; omega

theorem blk2 (c : Dev nD) (t : Fin cfg0.N) (y : S1x1x2048x64.Idx) (i : S4x16x2048x64.Idx)
    (e0 : (i 0).val = t.val / 64) (e1 : (i 1).val = t.val / 4 % 16) (e2 : (i 2).val = (y 2).val) (e3 : (i 3).val = (y 3).val) :
    (iblk m c 2 t : S1x1x2048x64.Idx → EReal) y = (V m c main_arg2 : S4x16x2048x64.Idx → EReal) i := by
  obtain ⟨-, -, ⟨f0, f1, f2, f3⟩, -⟩ := idx_facts t
  have hy0 : (y 0).val < 1 := (y 0).isLt
  have hy1 : (y 1).val < 1 := (y 1).isLt
  show V m c main_arg2 (((cfg0.win 2).blk t).view.emb y) = V m c main_arg2 i
  congr 1
  funext a; apply Fin.ext
  match a with
  | ⟨0, _⟩ => show win0_2.index t (0 : Fin 4) * 1 + 1 * (y 0).val = (i 0).val; omega
  | ⟨1, _⟩ => show win0_2.index t (1 : Fin 4) * 1 + 1 * (y 1).val = (i 1).val; omega
  | ⟨2, _⟩ => show win0_2.index t (2 : Fin 4) * 2048 + 1 * (y 2).val = (i 2).val; omega
  | ⟨3, _⟩ => show win0_2.index t (3 : Fin 4) * 64 + 1 * (y 3).val = (i 3).val; omega

theorem blk3 (c : Dev nD) (t : Fin cfg0.N) (y : S1x1x512x2048.Idx) (i : S4x16x2048x2048.Idx)
    (e0 : (i 0).val = t.val / 64) (e1 : (i 1).val = t.val / 4 % 16) (e2 : (i 2).val = t.val % 4 * 512 + (y 2).val) (e3 : (i 3).val = (y 3).val) :
    (iblk m c 3 t : S1x1x512x2048.Idx → BitVec 32) y = (V m c main_v0 : S4x16x2048x2048.Idx → BitVec 32) i := by
  obtain ⟨-, -, -, ⟨f0, f1, f2, f3⟩, -⟩ := idx_facts t
  have hy0 : (y 0).val < 1 := (y 0).isLt
  have hy1 : (y 1).val < 1 := (y 1).isLt
  show V m c main_v0 (((cfg0.win 3).blk t).view.emb y) = V m c main_v0 i
  congr 1
  funext a; apply Fin.ext
  match a with
  | ⟨0, _⟩ => show win0_3.index t (0 : Fin 4) * 1 + 1 * (y 0).val = (i 0).val; omega
  | ⟨1, _⟩ => show win0_3.index t (1 : Fin 4) * 1 + 1 * (y 1).val = (i 1).val; omega
  | ⟨2, _⟩ => show win0_3.index t (2 : Fin 4) * 512 + 1 * (y 2).val = (i 2).val; omega
  | ⟨3, _⟩ => show win0_3.index t (3 : Fin 4) * 2048 + 1 * (y 3).val = (i 3).val; omega

/-! ## What each point writes back -/

/-- Point `t` writes back its block of the probability array. -/
theorem flushed5_eq (c : Dev nD) (t : Fin cfg0.N) :
    (dats m 0 c).flushed 5 t = ((cfg0.win 5).blk t).view.read (Elt Ideal)
      (Attn.probsFolded (V m c main_arg0) (V m c main_arg1) (V m c main_v0)) := by
  rw [Value.flushed5]
  unfold out0_5
  rw [View.canon_unit_zero hz]
  simp only [View.ld_unit_zero (S := S1x1x512x64) hz, View.ld_unit_zero (S := S1x1x2048x64) hz, View.ld_unit_zero (S := S1x1x512x2048) hz]
  obtain ⟨-, -, -, -, -, ⟨f0, f1, f2, f3⟩⟩ := idx_facts t
  funext y
  have hy0 : (y 0).val < 1 := (y 0).isLt
  have hy1 : (y 1).val < 1 := (y 1).isLt
  show k0_pay3 (F := Ideal) (iblk m c 0 t) (iblk m c 1 t) (iblk m c 3 t) y
    = Attn.probsFolded (V m c main_arg0) (V m c main_arg1) (V m c main_v0) (((cfg0.win 5).blk t).view.emb y)
  refine Block.probs_block (V m c main_arg0) (V m c main_arg1) (V m c main_v0) (iblk m c 0 t) (iblk m c 1 t) (iblk m c 3 t)
    (t.val / 64) (t.val / 4 % 16) (t.val % 4) (fun y' i e0 e1 e2 e3 => blk0 m c t y' i e0 e1 e2 e3)
    (fun y' i e0 e1 e2 e3 => blk1 m c t y' i e0 e1 e2 e3) (fun y' i e0 e1 e2 e3 => blk3 m c t y' i e0 e1 e2 e3)
    y (((cfg0.win 5).blk t).view.emb y) ?_ ?_ ?_ ?_
  · show win0_5.index t (0 : Fin 4) * 1 + 1 * (y 0).val = t.val / 64; omega
  · show win0_5.index t (1 : Fin 4) * 1 + 1 * (y 1).val = t.val / 4 % 16; omega
  · show win0_5.index t (2 : Fin 4) * 512 + 1 * (y 2).val = t.val % 4 * 512 + (y 2).val; omega
  · show win0_5.index t (3 : Fin 4) * 2048 + 1 * (y 3).val = (y 3).val; omega

/-- Point `t` writes back its block of the context array. -/
theorem flushed4_eq (c : Dev nD) (t : Fin cfg0.N) :
    (dats m 0 c).flushed 4 t = ((cfg0.win 4).blk t).view.read (Elt Ideal)
      (Attn.ctxFolded (V m c main_arg0) (V m c main_arg1) (V m c main_arg2) (V m c main_v0)) := by
  rw [Value.flushed4]
  unfold out0_4
  rw [View.canon_unit_zero hz]
  simp only [View.ld_unit_zero (S := S1x1x512x64) hz, View.ld_unit_zero (S := S1x1x2048x64) hz, View.ld_unit_zero (S := S1x1x512x2048) hz]
  obtain ⟨-, -, -, -, ⟨f0, f1, f2, f3⟩, -⟩ := idx_facts t
  funext y
  have hy0 : (y 0).val < 1 := (y 0).isLt
  have hy1 : (y 1).val < 1 := (y 1).isLt
  show k0_pay1 (F := Ideal) (k0_pay4 (iblk m c 0 t) (iblk m c 1 t) (iblk m c 3 t)) (k0_pay5 (iblk m c 2 t)) y
    = Attn.ctxFolded (V m c main_arg0) (V m c main_arg1) (V m c main_arg2) (V m c main_v0) (((cfg0.win 4).blk t).view.emb y)
  refine Block.ctx_block (V m c main_arg0) (V m c main_arg1) (V m c main_arg2) (V m c main_v0) (iblk m c 0 t) (iblk m c 1 t) (iblk m c 2 t) (iblk m c 3 t)
    (t.val / 64) (t.val / 4 % 16) (t.val % 4) (fun y' i e0 e1 e2 e3 => blk0 m c t y' i e0 e1 e2 e3)
    (fun y' i e0 e1 e2 e3 => blk1 m c t y' i e0 e1 e2 e3) (fun y' i e0 e1 e2 e3 => blk2 m c t y' i e0 e1 e2 e3)
    (fun y' i e0 e1 e2 e3 => blk3 m c t y' i e0 e1 e2 e3)
    y (((cfg0.win 4).blk t).view.emb y) ?_ ?_ ?_ ?_
  · show win0_4.index t (0 : Fin 4) * 1 + 1 * (y 0).val = t.val / 64; omega
  · show win0_4.index t (1 : Fin 4) * 1 + 1 * (y 1).val = t.val / 4 % 16; omega
  · show win0_4.index t (2 : Fin 4) * 512 + 1 * (y 2).val = t.val % 4 * 512 + (y 2).val; omega
  · show win0_4.index t (3 : Fin 4) * 64 + 1 * (y 3).val = (y 3).val; omega

/-! ## Every index is in some point's block -/

theorem mem_blk5 (t : Fin cfg0.N) (i : S4x16x2048x2048.Idx) :
    i ∈ ((cfg0.win 5).blk t).view.set ↔ ∀ a : Fin 4, win0_5.index t a * S1x1x512x2048.size a ≤ (i a).val ∧ (i a).val < win0_5.index t a * S1x1x512x2048.size a + S1x1x512x2048.size a := by
  show i ∈ ((View.whole main_v1_1).slice (win0_5.rect t)).set ↔ _
  rw [View.set_slice_whole, Rect.mem_set_unit]
  exact Iff.rfl

theorem mem_blk4 (t : Fin cfg0.N) (i : S4x16x2048x64.Idx) :
    i ∈ ((cfg0.win 4).blk t).view.set ↔ ∀ a : Fin 4, win0_4.index t a * S1x1x512x64.size a ≤ (i a).val ∧ (i a).val < win0_4.index t a * S1x1x512x64.size a + S1x1x512x64.size a := by
  show i ∈ ((View.whole main_v1_0).slice (win0_4.rect t)).set ↔ _
  rw [View.set_slice_whole, Rect.mem_set_unit]
  exact Iff.rfl

/-- The point with an index's head and its row's tile covers it. -/
theorem cover5 (i : S4x16x2048x2048.Idx) : ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 2048 := (i 2).isLt
  have hi3 : (i 3).val < 2048 := (i 3).isLt
  have hN : cfg0.N = 256 := N_0
  obtain ⟨t, ht⟩ : ∃ t : Fin cfg0.N, t.val = (i 0).val * 64 + (i 1).val * 4 + (i 2).val / 512 :=
    ⟨⟨(i 0).val * 64 + (i 1).val * 4 + (i 2).val / 512, by rw [hN]; omega⟩, rfl⟩
  obtain ⟨-, -, -, -, -, ⟨f0, f1, f2, f3⟩⟩ := idx_facts t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

theorem cover4 (i : S4x16x2048x64.Idx) : ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 2048 := (i 2).isLt
  have hi3 : (i 3).val < 64 := (i 3).isLt
  have hN : cfg0.N = 256 := N_0
  obtain ⟨t, ht⟩ : ∃ t : Fin cfg0.N, t.val = (i 0).val * 64 + (i 1).val * 4 + (i 2).val / 512 :=
    ⟨⟨(i 0).val * 64 + (i 1).val * 4 + (i 2).val / 512, by rw [hN]; omega⟩, rfl⟩
  obtain ⟨-, -, -, -, ⟨f0, f1, f2, f3⟩, -⟩ := idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The arrays after the run -/

/-- The folded attention of the argument arrays as launched: the queries, keys and values, and the mask's bits widened. -/
abbrev probsOf (c : Dev nD) : S4x16x2048x2048.Idx → EReal :=
  Attn.probsFolded (m ((c : Thread nD τ).loc main_arg0)) (m ((c : Thread nD τ).loc main_arg1))
    (fun i => ((m ((c : Thread nD τ).loc main_arg3) : S4x16x2048x2048.Idx → BitVec 1) i).setWidth 32)

abbrev ctxOf (c : Dev nD) : S4x16x2048x64.Idx → EReal :=
  Attn.ctxFolded (m ((c : Thread nD τ).loc main_arg0)) (m ((c : Thread nD τ).loc main_arg1)) (m ((c : Thread nD τ).loc main_arg2))
    (fun i => ((m ((c : Thread nD τ).loc main_arg3) : S4x16x2048x2048.Idx → BitVec 1) i).setWidth 32)

theorem final5 (c : Dev nD) : (dats m 0 c).arrAt 5 cfg0.N = probsOf m c := by
  rw [(dats m 0 c).arrAt_eq_of_cover 5 (Attn.probsFolded (V m c main_arg0) (V m c main_arg1) (V m c main_v0))
    (fun t _ => flushed5_eq m c t) cover5]
  rw [V_main_arg0, V_main_arg1, V_main_v0]
  rfl

theorem final4 (c : Dev nD) : (dats m 0 c).arrAt 4 cfg0.N = ctxOf m c := by
  rw [(dats m 0 c).arrAt_eq_of_cover 4 (Attn.ctxFolded (V m c main_arg0) (V m c main_arg1) (V m c main_arg2) (V m c main_v0))
    (fun t _ => flushed4_eq m c t) cover4]
  rw [V_main_arg0, V_main_arg1, V_main_arg2, V_main_v0]
  rfl

/-- THE KERNEL'S RUN, READ: both result arrays at the folded attention of the arguments, the arguments unchanged. -/
theorem run : θ_run defs (onTc (τ := τ) (main (F := Ideal))) ⟨m, fun _ => 0, ρ⟩ fun r => ∀ c : Dev nD,
      r.2.mem ((c : Thread nD τ).loc main_v1_0) = ctxOf m c
      ∧ r.2.mem ((c : Thread nD τ).loc main_v1_1) = probsOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Whole

end
-- ==== Proof.LibHostMax4.lean ====
/-
  A host reduction with a maximum body, started from the bottom element, over the LAST axis of a rank-4 array [a, b, c, w],
  read at an index over the extended reals: at (p, q, r) it is the supremum of the `w` entries (p, q, r, ·). The reduction is a
  fold of `max` over the reduced axis's coordinates in some order, and a fold of `max` from the bottom element over a finite
  family is the family's supremum whatever the order. (The rank-2 and rank-3 forms are in the companion module.)
-/
import Idealize.ShloMosaic.Lib.ValueIdx
import Idealize.ShloMosaic.Lib.Pipeline.Value
import Idealize.ShloMosaic.PureOps.Ideal.Laws

noncomputable section

namespace HostMax4

open Idealize.ShloMosaic Idealize.ShloMosaic.ValueIdx

/-- Position (p, q, r) of an [a, b, c, w] array with coordinate `k` put back on the reduced (last) axis is (p, q, r, k). -/
theorem lift_last {a b c w : ℕ} (h : (⟨4, ![a, b, c, w]⟩ : Shape).Reduces [3] (⟨3, ![a, b, c]⟩ : Shape))
    (p : Fin a) (q : Fin b) (r : Fin c) (k : Fin ((⟨4, ![a, b, c, w]⟩ : Shape).size 3)) :
    h.lift (ix3 p q r) k = ix4 p q r (⟨k.val, k.isLt⟩ : Fin w) := by
  funext d; apply Fin.ext
  fin_cases d <;> rfl

/-- From −∞ the host's maximum over the last axis of an [a, b, c, w] array, at (p, q, r), is the supremum of that row. -/
theorem reduce_last {a b c w : ℕ} (v : FVec Ideal ⟨4, ![a, b, c, w]⟩ .f32) (init : (⟨0, ![]⟩ : Shape).Idx → Ideal .f32)
    (hinit : ∀ i, init i = (⊥ : EReal))
    (h' : (⟨4, ![a, b, c, w]⟩ : Shape).ReducesTo [3] (⟨3, ![a, b, c]⟩ : Shape))
    (h : (⟨4, ![a, b, c, w]⟩ : Shape).Reduces [3] (⟨3, ![a, b, c]⟩ : Shape))
    (hu : 0 < (⟨0, ![]⟩ : Shape).numel) (p : Fin a) (q : Fin b) (r : Fin c) :
    Host.reduce FloatOps.maximumf v init h' hu (ix3 p q r) = (Finset.univ : Finset (Fin w)).sup fun k => v (ix4 p q r k) := by
  rw [Host.reduce_eq_fold_single FloatOps.maximumf v init h' h hu, hinit]
  have hf : (v ∘ h.lift (ix3 p q r)) = fun k : Fin w => v (ix4 p q r k) :=
    funext fun k => congrArg v (lift_last h p q r k)
  exact congrArg (fun f => Finset.fold max (⊥ : EReal) f (Finset.univ : Finset (Fin w))) hf

end HostMax4

end
-- ==== Proof.RefValue.lean ====
/-
  The reference program's two results as mathematics. Its host operations, read one at a time at an index, compute for every
  query row (b, h, q): the inner products with the key rows times the scale, the sentinel where the mask is set; the row's
  maximum (a maximum-reduction from −∞, then a maximum with −∞ again: the supremum of the row); the exponentials of the shifted
  scores; their sum from 0; the quotients; and the product of the probabilities with the value rows. So the two result arrays
  are the attention probabilities and the context of the specification.
-/
import proofs.«152172_j78288663872424_2_alg».proof.Proof.Gen.ReferenceIdeal.Read
import proofs.«152172_j78288663872424_2_alg».proof.Proof.AttnSpec
import proofs.«152172_j78288663872424_2_alg».proof.Proof.LibHostMax
import proofs.«152172_j78288663872424_2_alg».proof.Proof.LibHostMax4

noncomputable section

open scoped BigOperators

namespace Cert.ReferenceIdeal.RefValue

open Cert.ReferenceIdeal Cert.ReferenceIdeal.Read Idealize.ShloMosaic Idealize.ShloMosaic.ValueIdx

abbrev Arr : Type := (⟨S4x16x2048x64, .f32⟩ : BufTy).Contents (Elt Ideal)
abbrev Msk : Type := (⟨S4x16x2048x2048, .i1⟩ : BufTy).Contents (Elt Ideal)

/-- The row of masked, scaled scores of query row (b, h, q). -/
abbrev row (x0 x1 : Arr) (x3 : Msk) (b : Fin 4) (h : Fin 16) (q : Fin 2048) : Fin 2048 → EReal :=
  Attn.score Attn.scale Attn.sentinel (fun d : Fin 64 => x0 (ix4 b h q d)) (fun (j : Fin 2048) (d : Fin 64) => x1 (ix4 b h j d))
    (fun j : Fin 2048 => x3 (ix4 b h q j))

/-- The masked scores at (b, h, q, k). -/
theorem scores_apply (x0 x1 : Arr) (x3 : Msk) (b : Fin 4) (h : Fin 16) (q k : Fin 2048) :
    val_main_v3 (F := Ideal) x0 x1 x3 (ix4 b h q k) = row x0 x1 x3 b h q k := by
  have el : ∀ d : Fin 64, lidx_main_v0 (ix4 b h q k) d = ix4 b h q d := fun d => funext fun a => Fin.ext (by
    match a with | ⟨0, _⟩ => rfl | ⟨1, _⟩ => rfl | ⟨2, _⟩ => rfl | ⟨3, _⟩ => rfl)
  have er : ∀ d : Fin 64, ridx_main_v0 (ix4 b h q k) d = ix4 b h k d := fun d => funext fun a => Fin.ext (by
    match a with | ⟨0, _⟩ => rfl | ⟨1, _⟩ => rfl | ⟨2, _⟩ => rfl | ⟨3, _⟩ => rfl)
  rw [val_main_v3_apply, val_main_call0_v1_apply, val_main_call0_v0_apply, val_main_cst_0_apply, val_main_v2_apply,
    val_main_v0_apply, val_main_v1_apply, val_main_cst_apply]
  simp only [el, er]
  rfl

/-- The row maximum at (b, h, q) is the supremum of the row of scores. -/
theorem rowmax_apply (x0 x1 : Arr) (x3 : Msk) (b : Fin 4) (h : Fin 16) (q : Fin 2048) :
    val_main_v6 (F := Ideal) x0 x1 x3 (ix3 b h q) = (Finset.univ : Finset (Fin 2048)).sup (row x0 x1 x3 b h q) := by
  rw [val_main_v6_apply, val_main_v5_apply, val_main_cst_2_apply]
  unfold val_main_v4
  rw [HostMax4.reduce_last (val_main_v3 (F := Ideal) x0 x1 x3) (val_main_cst_1 (F := Ideal)) (fun _ => HostMax.ofBits_neg_inf)
    Gen.reducesTo_S4x16x2048x2048_S4x16x2048_d3 (by decide) Gen.h_S_ b h q]
  show max (Ideal.ofBits .f32 0xFF800000#32) _ = _
  rw [HostMax.ofBits_neg_inf, bot_sup_eq]
  exact congrArg (Finset.univ : Finset (Fin 2048)).sup (funext fun k => scores_apply x0 x1 x3 b h q k)

/-- The shifted exponential at (b, h, q, j). -/
theorem exp_apply (x0 x1 : Arr) (x3 : Msk) (b : Fin 4) (h : Fin 16) (q j : Fin 2048) :
    val_main_v10 (F := Ideal) x0 x1 x3 (ix4 b h q j)
      = Ideal.exp (row x0 x1 x3 b h q j - (Finset.univ : Finset (Fin 2048)).sup (row x0 x1 x3 b h q)) := by
  have e : idx_main_v7 (idx_main_v8 (ix4 b h q j)) = ix3 b h q := funext fun a => Fin.ext (by
    match a with | ⟨0, _⟩ => rfl | ⟨1, _⟩ => rfl | ⟨2, _⟩ => rfl)
  rw [val_main_v10_apply, val_main_v9_apply, val_main_v8_apply, val_main_v7_apply, e, rowmax_apply, scores_apply]
  rfl

/-- THE PROBABILITIES: the reference's second result is the specification's array of attention probabilities. -/
theorem probs_eq (x0 x1 : Arr) (x3 : Msk) : val_main_v14 (F := Ideal) x0 x1 x3 = Attn.probs x0 x1 x3 := by
  funext i
  obtain ⟨b, h, q, k, rfl⟩ : ∃ (b : Fin 4) (h : Fin 16) (q k : Fin 2048), i = ix4 b h q k := ⟨i 0, i 1, i 2, i 3, eq_ix4 i⟩
  have e : idx_main_v12 (idx_main_v13 (ix4 b h q k)) = ix3 b h q := funext fun a => Fin.ext (by
    match a with | ⟨0, _⟩ => rfl | ⟨1, _⟩ => rfl | ⟨2, _⟩ => rfl)
  have es : ∀ j : Fin 2048, idx_main_v11 (ix3 b h q) j = ix4 b h q j := fun j => funext fun a => Fin.ext (by
    match a with | ⟨0, _⟩ => rfl | ⟨1, _⟩ => rfl | ⟨2, _⟩ => rfl | ⟨3, _⟩ => rfl)
  rw [val_main_v14_apply, val_main_v13_apply, val_main_v12_apply, e, val_main_v11_apply, val_main_cst_3_apply, exp_apply]
  simp only [es, exp_apply]
  show Ideal.div _ (Ideal.ofBits .f32 0x00000000#32 + _) = _
  rw [Ideal.ofBits_zero_f32, zero_add]
  rfl

/-- THE CONTEXT: the reference's first result is the specification's context array. -/
theorem ctx_eq (x0 x1 x2 : Arr) (x3 : Msk) : val_main_v15 (F := Ideal) x0 x1 x2 x3 = Attn.ctx x0 x1 x2 x3 := by
  funext i
  obtain ⟨b, h, q, d, rfl⟩ : ∃ (b : Fin 4) (h : Fin 16) (q : Fin 2048) (d : Fin 64), i = ix4 b h q d := ⟨i 0, i 1, i 2, i 3, eq_ix4 i⟩
  have el : ∀ k : Fin 2048, lidx_main_v15 (ix4 b h q d) k = ix4 b h q k := fun k => funext fun a => Fin.ext (by
    match a with | ⟨0, _⟩ => rfl | ⟨1, _⟩ => rfl | ⟨2, _⟩ => rfl | ⟨3, _⟩ => rfl)
  have er : ∀ k : Fin 2048, ridx_main_v15 (ix4 b h q d) k = ix4 b h k d := fun k => funext fun a => Fin.ext (by
    match a with | ⟨0, _⟩ => rfl | ⟨1, _⟩ => rfl | ⟨2, _⟩ => rfl | ⟨3, _⟩ => rfl)
  rw [val_main_v15_apply, probs_eq]
  simp only [el, er]
  rfl

end Cert.ReferenceIdeal.RefValue

end
-- ==== Proof.Finite.lean ====
/-
  What the precondition says. The predicate is the conjunction, over the three float arguments, of "every entry's absolute value
  is below +∞". On the extended reals an entry whose absolute value max(x, −x) is below ⊤ is neither ⊤ nor ⊥: it is a real number.
  So under the precondition every entry of the queries, the keys and the values is a real.
-/
import proofs.«152172_j78288663872424_2_alg».proof.Pre_finite_inputs
import proofs.«152172_j78288663872424_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

instance : Subsingleton S_.Idx := ⟨fun a b => funext fun d => d.elim0⟩

/-- An extended real whose absolute value is strictly below +∞ is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x using EReal.rec with
  | bot => exfalso; simp [Ideal.cmp] at h
  | top => exfalso; simp [Ideal.cmp] at h
  | coe r => exact ⟨r, rfl⟩

/-- Under the precondition every entry of each float argument is a real number. -/
theorem real_of_pre (a0 a1 a2 : FVec Ideal S4x16x2048x64 .f32) (a3 : IVec S4x16x2048x2048 1)
    (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  have h1 : IntOp.andi (IntOp.andi _ _) _ = 1#1 := congrFun h ValueIdx.ix0
  obtain ⟨h12, e2⟩ := IntOp.andi_eq_one.1 h1
  obtain ⟨e0, e1⟩ := IntOp.andi_eq_one.1 h12
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i)⟩

end Cert.Pre_finite_inputs.Finite

end
-- ==== Proof.lean ====
/-
  Masked scaled dot-product attention over [4, 16, 2048, 64] queries, keys and values with a [4, 16, 2048, 2048] boolean mask: a
  tiled kernel against the plain array program, equal as extended reals.

  Both programs compute, for every query row (b, h, q), the scores s_k = ⟨Q q, K k⟩ / 8, replaced by −10⁹ where the mask is set;
  the probabilities p_k = exp (s_k − max s) / ∑_j exp (s_j − max s); and the context ∑_k p_k · V k. They differ in three ways, none
  of which changes the result on the extended reals:

  * the kernel multiplies every entry of the query row by 1/8 before the inner product, the reference multiplies the inner
    product: distributivity over the 64-term sum, which needs the entries and the scale to be real numbers — this is where the
    precondition (every float input finite) is used;
  * the kernel sees the mask as 32-bit words, widened from the bits by the host, and tests them against zero: that gives the bit back;
  * the kernel works on tiles of 512 query rows per head and rounds its matrix products' operands to a shorter format: a change
    of format is the identity on the extended reals, and the tiles' write-backs fill both result arrays exactly.

  The row maximum is in both programs a maximum taken from −∞ (the reference takes it twice), the row sum a sum from 0; the two
  matrix products are sums of products on either side.

  The kernel's idealization rewrote nothing, so it is the kernel's own text read over the extended reals and there is nothing to
  preserve.
-/
import proofs.«152172_j78288663872424_2_alg».proof.Defs
import proofs.«152172_j78288663872424_2_alg».proof.Proof.Gen.Kernel
import proofs.«152172_j78288663872424_2_alg».proof.Proof.Gen.Kernel.Skeleton
import proofs.«152172_j78288663872424_2_alg».proof.Proof.Gen.Kernel.Launch
import proofs.«152172_j78288663872424_2_alg».proof.Proof.Gen.Kernel.Points
import proofs.«152172_j78288663872424_2_alg».proof.Proof.Gen.Kernel.Frame
import proofs.«152172_j78288663872424_2_alg».proof.Proof.Gen.KernelIdeal
import proofs.«152172_j78288663872424_2_alg».proof.Proof.Gen.KernelIdeal.Skeleton
import proofs.«152172_j78288663872424_2_alg».proof.Proof.Gen.KernelIdeal.Launch
import proofs.«152172_j78288663872424_2_alg».proof.Proof.Gen.KernelIdeal.Points
import proofs.«152172_j78288663872424_2_alg».proof.Proof.Gen.KernelIdeal.Frame
import proofs.«152172_j78288663872424_2_alg».proof.Proof.Gen.ReferenceIdeal
import proofs.«152172_j78288663872424_2_alg».proof.Proof.Gen.Pre_finite_inputs
import proofs.«152172_j78288663872424_2_alg».proof.Proof.Gen.KernelIdeal.Value
import proofs.«152172_j78288663872424_2_alg».proof.Proof.Gen.ReferenceIdeal.Run
import proofs.«152172_j78288663872424_2_alg».proof.Proof.Gen.ReferenceIdeal.Read
import proofs.«152172_j78288663872424_2_alg».proof.Proof.AttnSpec
import proofs.«152172_j78288663872424_2_alg».proof.Proof.KernelArray
import proofs.«152172_j78288663872424_2_alg».proof.Proof.RefValue
import proofs.«152172_j78288663872424_2_alg».proof.Proof.Finite
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the four arguments, the kernel's two result arrays (the tiles' write-backs assembled: the attention
    in the kernel's spelling) and the reference's (its operations read at an index: the attention of the specification) are equal:
    with real queries and keys the scale moves across the inner product, and the widened mask words tested against zero are the
    mask bits. -/
theorem algebraic : Cert.algebraic_KernelIdeal_ReferenceIdeal := by
  intro m ρ m' ρ' hpre hagree
  refine ⟨fun c => Cert.KernelIdeal.Whole.ctxOf m c, fun c => Cert.KernelIdeal.Whole.probsOf m c, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨hQ, hK, -⟩ := Cert.Pre_finite_inputs.Finite.real_of_pre _ _ _ _ (hpre c)
    rw [Cert.ReferenceIdeal.Read.val_main_v15_eq, Cert.ReferenceIdeal.RefValue.ctx_eq, (hagree c).1, (hagree c).2.1, (hagree c).2.2.1,
      (hagree c).2.2.2]
    exact (Cert.Attn.ctxFolded_eq _ _ _ _ hQ hK).symm
  · obtain ⟨hQ, hK, -⟩ := Cert.Pre_finite_inputs.Finite.real_of_pre _ _ _ _ (hpre c)
    rw [Cert.ReferenceIdeal.Read.val_main_v14_eq, Cert.ReferenceIdeal.RefValue.probs_eq, (hagree c).1, (hagree c).2.1, (hagree c).2.2.2]
    exact (Cert.Attn.probsFolded_eq _ _ _ hQ hK).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
